-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x256 .f32) (main_arg1 : IVec S800000 32) (main_arg2 : IVec S800000 32) (main_arg3 : FVec F S256x64 .f32) (main_arg4 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x256 : Shape := ⟨2, ![50000, 256]⟩
abbrev S800000 : Shape := ⟨1, ![800000]⟩
abbrev S256x64 : Shape := ⟨2, ![256, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S2000x256 : Shape := ⟨2, ![2000, 256]⟩
abbrev S2000x1 : Shape := ⟨2, ![2000, 1]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 41
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x64, .f32⟩
  | .hbm, ⟨4, _⟩ => ⟨S64, .f32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x1, .f32⟩
  | .hbm, ⟨39, _⟩ => ⟨S1x64, .f32⟩
  | .hbm, ⟨40, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S800000x1_S800000_n_0_0_1_wf : ScatterDims.WF S50000 S800000x1 S800000 [] [0] [0] 1
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000 : Shape := ⟨1, ![800000]⟩
abbrev S256x64 : Shape := ⟨2, ![256, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 54
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x64, .f32⟩
  | .hbm, ⟨4, _⟩ => ⟨S64, .f32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x256, .f32⟩
  | .hbm, ⟨25, _⟩ => ⟨S50000x256, .f32⟩
  | .hbm, ⟨26, _⟩ => ⟨S50000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S_, .f32⟩
  | .hbm, ⟨37, _⟩ => ⟨S50000x64, .f32⟩
  | .hbm, ⟨38, _⟩ => ⟨S800000x1, .i32⟩
  | .hbm, ⟨39, _⟩ => ⟨S50000x64, .f32⟩
  | .hbm, ⟨40, _⟩ => ⟨S50000x1, .f32⟩
  | .hbm, ⟨41, _⟩ => ⟨S50000x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S_, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S50000x64, .f32⟩
  | .hbm, ⟨53, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The program's run with its final memory read at EVERY buffer the main thread holds.

  The program is four segments in order: a stretch of array operations, the product kernel over its 25 grid points,
  a second stretch of array operations, the finalize kernel over its 25 grid points. Every weakly fair execution
  terminates, and in its final state each buffer holds what folding those four segments over the launch memory
  gives (`W4`). Any property of the final memory that follows from those readings therefore holds of every execution
  (`run_read`); in particular the result buffer holds the fold's value there and the five arguments hold what they
  were launched with (`run_result`).
-/
import proofs.«159103_j78245714198553_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and whatever follows from "each buffer the main thread
    holds ends at the four segments' fold of the launch memory" holds of its final state. -/
theorem run_read {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The result buffer ends at the fold's value there; the five arguments end as launched. -/
theorem run_result : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_read m ρ fun s h c =>
    ⟨h c _ (mem_uc main_v27 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩

end Cert.KernelIdeal.RunValue

end
-- ==== Proof.LayerSpec.lean ====
/-
  The two dense stages of a graph-convolution layer, as whole-array functions on the extended reals.

  * `scaledProduct x s w`: scale row p of the M x K matrix x by the entry s(p, 0) of an M x 1 column, then multiply by the
    K x N matrix w: entry (p, q) is the sum over k of (x(p, k) * s(p, 0)) * w(k, q).
  * `scaledLogistic a s b`: scale row p of the M x N matrix a by s(p, 0), add the entry b(0, q) of a 1 x N row along
    every row, and apply the logistic function 1 / (1 + e^(-y)) entrywise.

  Both are stated for any sizes: a block of rows of the result is the same function of the matching block of rows of x
  (or a) and of s, which is how a row-tiled computation meets the whole-array one (`scaledProduct_rows`,
  `scaledLogistic_rows`).
-/
import Idealize.ShloMosaic.PureOps.Ideal
import Idealize.ShloMosaic.Lib.ValueIdx

noncomputable section

open scoped BigOperators

namespace Cert.LayerSpec

open Idealize.ShloMosaic Idealize.ShloMosaic.ValueIdx

/-- Rows scaled by a column, then the matrix product: entry (p, q) is the sum over k of (x(p, k) * s(p, 0)) * w(k, q). -/
def scaledProduct {M K N : ℕ} (x : FVec Ideal ⟨2, ![M, K]⟩ .f32) (s : FVec Ideal ⟨2, ![M, 1]⟩ .f32)
    (w : FVec Ideal ⟨2, ![K, N]⟩ .f32) : FVec Ideal ⟨2, ![M, N]⟩ .f32 :=
  fun i => ∑ k : Fin K, (x (ix2 (i 0) k) * s (ix2 (i 0) (0 : Fin 1))) * w (ix2 k (i 1))

theorem scaledProduct_apply {M K N : ℕ} (x : FVec Ideal ⟨2, ![M, K]⟩ .f32) (s : FVec Ideal ⟨2, ![M, 1]⟩ .f32)
    (w : FVec Ideal ⟨2, ![K, N]⟩ .f32) (p : Fin M) (q : Fin N) :
    scaledProduct x s w (ix2 p q) = ∑ k : Fin K, (x (ix2 p k) * s (ix2 p (0 : Fin 1))) * w (ix2 k q) := rfl

/-- A block of rows of the scaled product is the scaled product of the blocks: if row p of the block is row r of the
    arrays (the embeddings e0, e1, e3 send block positions in row p to array positions in row r, and e2 leaves the
    second factor where it is), entry (p, q) computed from the blocks is entry (r, q) computed from the arrays. -/
theorem scaledProduct_rows {M M' K N : ℕ} (A : FVec Ideal ⟨2, ![M, K]⟩ .f32) (S : FVec Ideal ⟨2, ![M, 1]⟩ .f32)
    (W : FVec Ideal ⟨2, ![K, N]⟩ .f32)
    (e0 : (⟨2, ![M', K]⟩ : Shape).Idx → (⟨2, ![M, K]⟩ : Shape).Idx)
    (e1 : (⟨2, ![M', 1]⟩ : Shape).Idx → (⟨2, ![M, 1]⟩ : Shape).Idx)
    (e2 : (⟨2, ![K, N]⟩ : Shape).Idx → (⟨2, ![K, N]⟩ : Shape).Idx)
    (e3 : (⟨2, ![M', N]⟩ : Shape).Idx → (⟨2, ![M, N]⟩ : Shape).Idx)
    (p : Fin M') (q : Fin N) (r : Fin M)
    (h3 : e3 (ix2 p q) = ix2 r q) (h0 : ∀ k : Fin K, e0 (ix2 p k) = ix2 r k)
    (h1 : e1 (ix2 p (0 : Fin 1)) = ix2 r (0 : Fin 1)) (h2 : ∀ k : Fin K, e2 (ix2 k q) = ix2 k q) :
    scaledProduct (fun y => A (e0 y)) (fun y => S (e1 y)) (fun y => W (e2 y)) (ix2 p q)
      = scaledProduct A S W (e3 (ix2 p q)) := by
  rw [h3]
  show ∑ k : Fin K, (A (e0 (ix2 p k)) * S (e1 (ix2 p (0 : Fin 1)))) * W (e2 (ix2 k q))
      = ∑ k : Fin K, (A (ix2 r k) * S (ix2 r (0 : Fin 1))) * W (ix2 k q)
  rw [h1]
  refine Finset.sum_congr rfl fun k _ => ?_
  rw [h0 k, h2 k]

/-- Rows scaled by a column, a row added along every row, then the logistic function entrywise. -/
def scaledLogistic {M N : ℕ} (a : FVec Ideal ⟨2, ![M, N]⟩ .f32) (s : FVec Ideal ⟨2, ![M, 1]⟩ .f32)
    (b : FVec Ideal ⟨2, ![1, N]⟩ .f32) : FVec Ideal ⟨2, ![M, N]⟩ .f32 :=
  fun i => Ideal.logistic (a (ix2 (i 0) (i 1)) * s (ix2 (i 0) (0 : Fin 1)) + b (ix2 (0 : Fin 1) (i 1)))

theorem scaledLogistic_apply {M N : ℕ} (a : FVec Ideal ⟨2, ![M, N]⟩ .f32) (s : FVec Ideal ⟨2, ![M, 1]⟩ .f32)
    (b : FVec Ideal ⟨2, ![1, N]⟩ .f32) (p : Fin M) (q : Fin N) :
    scaledLogistic a s b (ix2 p q) = Ideal.logistic (a (ix2 p q) * s (ix2 p (0 : Fin 1)) + b (ix2 (0 : Fin 1) q)) := rfl

/-- A block of rows of the scaled logistic is the scaled logistic of the blocks (same reading as `scaledProduct_rows`:
    row p of the block is row r of the arrays, and the bias row stays where it is). -/
theorem scaledLogistic_rows {M M' N : ℕ} (A : FVec Ideal ⟨2, ![M, N]⟩ .f32) (S : FVec Ideal ⟨2, ![M, 1]⟩ .f32)
    (B : FVec Ideal ⟨2, ![1, N]⟩ .f32)
    (e0 : (⟨2, ![M', N]⟩ : Shape).Idx → (⟨2, ![M, N]⟩ : Shape).Idx)
    (e1 : (⟨2, ![M', 1]⟩ : Shape).Idx → (⟨2, ![M, 1]⟩ : Shape).Idx)
    (e2 : (⟨2, ![1, N]⟩ : Shape).Idx → (⟨2, ![1, N]⟩ : Shape).Idx)
    (e3 : (⟨2, ![M', N]⟩ : Shape).Idx → (⟨2, ![M, N]⟩ : Shape).Idx)
    (p : Fin M') (q : Fin N) (r : Fin M)
    (h3 : e3 (ix2 p q) = ix2 r q) (h0 : e0 (ix2 p q) = ix2 r q)
    (h1 : e1 (ix2 p (0 : Fin 1)) = ix2 r (0 : Fin 1)) (h2 : e2 (ix2 (0 : Fin 1) q) = ix2 (0 : Fin 1) q) :
    scaledLogistic (fun y => A (e0 y)) (fun y => S (e1 y)) (fun y => B (e2 y)) (ix2 p q)
      = scaledLogistic A S B (e3 (ix2 p q)) := by
  rw [h3]
  show Ideal.logistic (A (e0 (ix2 p q)) * S (e1 (ix2 p (0 : Fin 1))) + B (e2 (ix2 (0 : Fin 1) q)))
      = Ideal.logistic (A (ix2 r q) * S (ix2 r (0 : Fin 1)) + B (ix2 (0 : Fin 1) q))
  rw [h0, h1, h2]

end Cert.LayerSpec

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.ProductBody.lean ====
/-
  The first kernel's arithmetic on one block of rows, at the exact instance.

  The body loads a 2000 x 256 block of the features, the matching 2000 x 1 block of the scaling column and the whole
  256 x 64 weight matrix, broadcasts the column across the 256 feature columns, multiplies, narrows both factors to
  bf16 (the identity on extended reals) and contracts them into a zero accumulator. Entry (p, q) of what it stores
  is therefore the sum over k of (x(p, k) * s(p, 0)) * w(k, q): the block is `scaledProduct` of the three loads.
-/
import proofs.«159103_j78245714198553_1_alg».proof.Proof.Gen.KernelIdeal.Skeleton
import proofs.«159103_j78245714198553_1_alg».proof.Proof.LayerSpec
import proofs.«159103_j78245714198553_1_alg».proof.Proof.LibMatmul
import proofs.«159103_j78245714198553_1_alg».proof.Proof.LibKeepdims
import Idealize.ShloMosaic.Lib.Pipeline.Value

noncomputable section

open scoped BigOperators

namespace Cert.KernelIdeal.Body

open Idealize.ShloMosaic Idealize.ShloMosaic.ValueIdx Cert.KernelIdeal Cert.KernelIdeal.Gen Cert.LayerSpec

/-- What the product kernel stores for a block: the scaled product of the block's loads. -/
theorem productBlock_eq (x : FVec Ideal S2000x256 .f32) (s : FVec Ideal S2000x1 .f32) (w : FVec Ideal S256x64 .f32) :
    k0_pay1 (F := Ideal) x s w = scaledProduct x s w := by
  funext j
  obtain ⟨p, q, rfl⟩ : ∃ (p : Fin 2000) (q : Fin 64), j = ix2 p q := ⟨j 0, j 1, eq_ix2 j⟩
  unfold k0_pay1
  refine (Cert.MatmulAt.matmul_zero_plain_apply dot_S2000x256_S256x64_S2000x64_1_0_0_1_n_n_wf none _ _ p q).trans ?_
  rw [scaledProduct_apply]
  refine Finset.sum_congr rfl fun k _ => ?_
  show (x (ix2 p k) * broadcastTo S2000x256 (shapeCast S2000x1 s shapeCasts_S2000x1_S2000x1) broadcasts_S2000x1_S2000x256 (ix2 p k))
      * w (ix2 k q) = _
  rw [Cert.Keepdims.broadcastTo_a1_ab_apply, shapeCast_self]

end Cert.KernelIdeal.Body

end
-- ==== Proof.ProductArray.lean ====
/-
  The first kernel's result as ONE array: the scaled product of the whole arrays it was launched on.

  The 25 grid points each take rows 2000 t .. 2000 t + 1999 of the features and of the scaling column, the whole
  weight matrix, and write rows 2000 t .. 2000 t + 1999 of the result. Row p of block t is row 2000 t + p of the array,
  and an entry of the scaled product depends only on its own row of the features and of the column, so block t of the
  result is block t of the whole-array scaled product; the 25 blocks tile the 50000 rows.
-/
import proofs.«159103_j78245714198553_1_alg».proof.Proof.Gen.KernelIdeal.Frame
import proofs.«159103_j78245714198553_1_alg».proof.Proof.ProductBody
import Idealize.ShloMosaic.Lib.Pipeline.Value

set_option maxRecDepth 16384

noncomputable section

open scoped BigOperators

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.LayerSpec

variable (V : (c : Dev nD) → (b : Ref sig .tc) → Buf (Elt Ideal) ((c : Thread nD τ).loc b))

theorem origin_zero : (![0, 0] : Fin 2 → Nat) = fun _ => 0 := funext fun a => by fin_cases a <;> rfl

/-- The block index maps over the grid: the row-tiled windows take block row t, the weights their one block. -/
theorem product_index : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the scaled product of the arrays the region was entered with. -/
theorem product_flushed (c : Dev nD) (t : Fin cfg0.N) :
    (dat0 V c).flushed 3 t = ((cfg0.win 3).blk t).view.read (Elt Ideal)
      (scaledProduct (V c main_arg0 : FVec Ideal S50000x256 .f32) (V c main_v13 : FVec Ideal S50000x1 .f32)
        (V c main_arg3 : FVec Ideal S256x64 .f32)) := by
  show (cfg0.win 3).cut (grid0.coords t) ((dat0 V c).after 3 t) = _
  rw [after0_3]
  unfold out0_3
  rw [View.canon_unit_zero origin_zero]
  simp only [View.ld_unit_zero (S := S2000x256) origin_zero, View.ld_unit_zero (S := S2000x1) origin_zero,
    View.ld_unit_zero (S := S256x64) origin_zero]
  rw [productBlock_eq]
  obtain ⟨e00, e01, e10, e11, e20, e21, e30, e31⟩ := product_index t
  funext j
  obtain ⟨p, q, rfl⟩ : ∃ (p : Fin 2000) (q : Fin 64), j = ix2 p q := ⟨j 0, j 1, eq_ix2 j⟩
  have hp : p.val < 2000 := p.isLt
  have ht : t.val < 25 := t.isLt.trans_eq N_0
  have hr : t.val * 2000 + p.val < 50000 := by omega
  have h3 : ((cfg0.win 3).blk t).view.emb (ix2 p q) = ix2 (⟨t.val * 2000 + p.val, hr⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 64 + 1 * q.val = q.val; omega
  have h0 : ∀ k : Fin 256, ((cfg0.win 0).blk t).view.emb (ix2 p k) = ix2 (⟨t.val * 2000 + p.val, hr⟩ : Fin 50000) k := by
    intro k; funext a; apply Fin.ext
    match a with
    | ⟨0, _⟩ => show win0_0.index t (0 : Fin 2) * 2000 + 1 * p.val = t.val * 2000 + p.val; omega
    | ⟨1, _⟩ => show win0_0.index t (1 : Fin 2) * 256 + 1 * k.val = k.val; omega
  have h1 : ((cfg0.win 1).blk t).view.emb (ix2 p (0 : Fin 1)) = ix2 (⟨t.val * 2000 + p.val, hr⟩ : Fin 50000) (0 : Fin 1) := by
    funext a; apply Fin.ext
    match a with
    | ⟨0, _⟩ => show win0_1.index t (0 : Fin 2) * 2000 + 1 * p.val = t.val * 2000 + p.val; omega
    | ⟨1, _⟩ => show win0_1.index t (1 : Fin 2) * 1 + 1 * 0 = 0; omega
  have h2 : ∀ k : Fin 256, ((cfg0.win 2).blk t).view.emb (ix2 k q) = ix2 k q := by
    intro k; funext a; apply Fin.ext
    match a with
    | ⟨0, _⟩ => show win0_2.index t (0 : Fin 2) * 256 + 1 * k.val = k.val; omega
    | ⟨1, _⟩ => show win0_2.index t (1 : Fin 2) * 64 + 1 * q.val = q.val; omega
  exact scaledProduct_rows (V c main_arg0 : FVec Ideal S50000x256 .f32) (V c main_v13 : FVec Ideal S50000x1 .f32)
    (V c main_arg3 : FVec Ideal S256x64 .f32) ((cfg0.win 0).blk t).view.emb ((cfg0.win 1).blk t).view.emb
    ((cfg0.win 2).blk t).view.emb ((cfg0.win 3).blk t).view.emb p q ⟨t.val * 2000 + p.val, hr⟩ h3 h0 h1 h2

/-- An index of the result array is in point t's block iff its row is one of rows 2000 t .. 2000 t + 1999. -/
theorem product_mem_blk (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v14).slice (win0_3.rect t)).set ↔ _
  rw [View.set_slice_whole, Rect.mem_set_unit]
  exact Iff.rfl

/-- Every index of the result array is in some point's block: row r is in block r / 2000. -/
theorem product_cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : (i 0).val / 2000 < cfg0.N := (by omega : (i 0).val / 2000 < 25).trans_eq N_0.symm
  obtain ⟨-, -, -, -, -, -, e30, e31⟩ := product_index ⟨(i 0).val / 2000, hN⟩
  have e30' : win0_3.index ⟨(i 0).val / 2000, hN⟩ (0 : Fin 2) = (i 0).val / 2000 := e30
  refine ⟨⟨(i 0).val / 2000, hN⟩, flush0_3 _, ?_⟩
  rw [product_mem_blk]
  intro a
  match a with
  | ⟨0, _⟩ =>
    show win0_3.index ⟨(i 0).val / 2000, hN⟩ (0 : Fin 2) * 2000 ≤ (i 0).val
      ∧ (i 0).val < win0_3.index ⟨(i 0).val / 2000, hN⟩ (0 : Fin 2) * 2000 + 2000
    omega
  | ⟨1, _⟩ =>
    show win0_3.index ⟨(i 0).val / 2000, hN⟩ (1 : Fin 2) * 64 ≤ (i 1).val
      ∧ (i 1).val < win0_3.index ⟨(i 0).val / 2000, hN⟩ (1 : Fin 2) * 64 + 64
    omega

/-- The result array after the region: the scaled product of the arrays the region was entered with. -/
theorem product_array (c : Dev nD) :
    (dat0 V c).arrAt 3 cfg0.N = scaledProduct (V c main_arg0 : FVec Ideal S50000x256 .f32)
      (V c main_v13 : FVec Ideal S50000x1 .f32) (V c main_arg3 : FVec Ideal S256x64 .f32) :=
  (dat0 V c).arrAt_eq_of_cover 3 _ (fun t _ => product_flushed V c t) product_cover

end Cert.KernelIdeal.Arrays

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«159103_j78245714198553_1_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.FinalizeBody.lean ====
/-
  The second kernel's arithmetic on one block of rows, at the exact instance.

  The body loads a 2000 x 64 block of the aggregated messages, the matching 2000 x 1 block of the scaling column and
  the 1 x 64 bias row, broadcasts the column across the 64 columns and the row down the 2000 rows, multiplies, adds
  and applies the logistic function. Entry (p, q) of what it stores is logistic(a(p, q) * s(p, 0) + b(0, q)): the block
  is `scaledLogistic` of the three loads.
-/
import proofs.«159103_j78245714198553_1_alg».proof.Proof.Gen.KernelIdeal.Skeleton
import proofs.«159103_j78245714198553_1_alg».proof.Proof.LayerSpec
import proofs.«159103_j78245714198553_1_alg».proof.Proof.LibKeepdims
import proofs.«159103_j78245714198553_1_alg».proof.Proof.LibRank2
import Idealize.ShloMosaic.Lib.Pipeline.Value

noncomputable section

namespace Cert.KernelIdeal.Body

open Idealize.ShloMosaic Idealize.ShloMosaic.ValueIdx Cert.KernelIdeal Cert.KernelIdeal.Gen Cert.LayerSpec

/-- What the finalize kernel stores for a block: the scaled, biased logistic of the block's loads. -/
theorem finalizeBlock_eq (a : FVec Ideal S2000x64 .f32) (s : FVec Ideal S2000x1 .f32) (b : FVec Ideal S1x64 .f32) :
    k1_pay1 (F := Ideal) a s b = scaledLogistic a s b := by
  funext j
  obtain ⟨p, q, rfl⟩ : ∃ (p : Fin 2000) (q : Fin 64), j = ix2 p q := ⟨j 0, j 1, eq_ix2 j⟩
  unfold k1_pay1
  rw [scaledLogistic_apply]
  show Ideal.logistic (shapeCast S2000x64 a shapeCasts_S2000x64_S2000x64 (ix2 p q)
        * broadcastTo S2000x64 (shapeCast S2000x1 s shapeCasts_S2000x1_S2000x1) broadcasts_S2000x1_S2000x64 (ix2 p q)
      + broadcastTo S2000x64 (shapeCast S1x64 b shapeCasts_S1x64_S1x64) broadcasts_S1x64_S2000x64 (ix2 p q)) = _
  rw [shapeCast_self, Cert.Keepdims.broadcastTo_a1_ab_apply, shapeCast_self, Cert.Rank2.rowBias_vec_apply]

end Cert.KernelIdeal.Body

end
-- ==== Proof.FinalizeArray.lean ====
/-
  The second kernel's result as ONE array: the scaled, biased logistic of the whole arrays it was launched on.

  The 25 grid points each take rows 2000 t .. 2000 t + 1999 of the aggregated messages and of the scaling column, the
  whole 1 x 64 bias row, and write rows 2000 t .. 2000 t + 1999 of the result. Row p of block t is row 2000 t + p of the
  array and an entry of the result depends only on its own entry of the messages, its row of the column and its
  column of the bias, so block t of the result is block t of the whole-array function; the 25 blocks tile the 50000 rows.
-/
import proofs.«159103_j78245714198553_1_alg».proof.Proof.Gen.KernelIdeal.Frame
import proofs.«159103_j78245714198553_1_alg».proof.Proof.FinalizeBody
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.LayerSpec

variable (V : (c : Dev nD) → (b : Ref sig .tc) → Buf (Elt Ideal) ((c : Thread nD τ).loc b))

theorem origin_zero' : (![0, 0] : Fin 2 → Nat) = fun _ => 0 := funext fun a => by fin_cases a <;> rfl

/-- The block index maps over the grid: the row-tiled windows take block row t, the bias row its one block. -/
theorem finalize_index : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the scaled logistic of the arrays the region was entered with. -/
theorem finalize_flushed (c : Dev nD) (t : Fin cfg1.N) :
    (dat1 V c).flushed 3 t = ((cfg1.win 3).blk t).view.read (Elt Ideal)
      (scaledLogistic (V c main_v24 : FVec Ideal S50000x64 .f32) (V c main_v25 : FVec Ideal S50000x1 .f32)
        (V c main_v26 : FVec Ideal S1x64 .f32)) := by
  show (cfg1.win 3).cut (grid1.coords t) ((dat1 V c).after 3 t) = _
  rw [after1_3]
  unfold out1_3
  rw [View.canon_unit_zero origin_zero']
  simp only [View.ld_unit_zero (S := S2000x64) origin_zero', View.ld_unit_zero (S := S2000x1) origin_zero',
    View.ld_unit_zero (S := S1x64) origin_zero']
  rw [finalizeBlock_eq]
  obtain ⟨e00, e01, e10, e11, e20, e21, e30, e31⟩ := finalize_index t
  funext j
  obtain ⟨p, q, rfl⟩ : ∃ (p : Fin 2000) (q : Fin 64), j = ix2 p q := ⟨j 0, j 1, eq_ix2 j⟩
  have hp : p.val < 2000 := p.isLt
  have ht : t.val < 25 := t.isLt.trans_eq N_1
  have hr : t.val * 2000 + p.val < 50000 := by omega
  have h3 : ((cfg1.win 3).blk t).view.emb (ix2 p q) = ix2 (⟨t.val * 2000 + p.val, hr⟩ : Fin 50000) q := by
    funext a; apply Fin.ext
    match a with
    | ⟨0, _⟩ => show win1_3.index t (0 : Fin 2) * 2000 + 1 * p.val = t.val * 2000 + p.val; omega
    | ⟨1, _⟩ => show win1_3.index t (1 : Fin 2) * 64 + 1 * q.val = q.val; omega
  have h0 : ((cfg1.win 0).blk t).view.emb (ix2 p q) = ix2 (⟨t.val * 2000 + p.val, hr⟩ : Fin 50000) q := by
    funext a; apply Fin.ext
    match a with
    | ⟨0, _⟩ => show win1_0.index t (0 : Fin 2) * 2000 + 1 * p.val = t.val * 2000 + p.val; omega
    | ⟨1, _⟩ => show win1_0.index t (1 : Fin 2) * 64 + 1 * q.val = q.val; omega
  have h1 : ((cfg1.win 1).blk t).view.emb (ix2 p (0 : Fin 1)) = ix2 (⟨t.val * 2000 + p.val, hr⟩ : Fin 50000) (0 : Fin 1) := by
    funext a; apply Fin.ext
    match a with
    | ⟨0, _⟩ => show win1_1.index t (0 : Fin 2) * 2000 + 1 * p.val = t.val * 2000 + p.val; omega
    | ⟨1, _⟩ => show win1_1.index t (1 : Fin 2) * 1 + 1 * 0 = 0; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 64 + 1 * q.val = q.val; omega
  exact scaledLogistic_rows (V c main_v24 : FVec Ideal S50000x64 .f32) (V c main_v25 : FVec Ideal S50000x1 .f32)
    (V c main_v26 : FVec Ideal S1x64 .f32) ((cfg1.win 0).blk t).view.emb ((cfg1.win 1).blk t).view.emb
    ((cfg1.win 2).blk t).view.emb ((cfg1.win 3).blk t).view.emb p q ⟨t.val * 2000 + p.val, hr⟩ h3 h0 h1 h2

/-- An index of the result array is in point t's block iff its row is one of rows 2000 t .. 2000 t + 1999. -/
theorem finalize_mem_blk (t : Fin cfg1.N) (i : S50000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v27).slice (win1_3.rect t)).set ↔ _
  rw [View.set_slice_whole, Rect.mem_set_unit]
  exact Iff.rfl

/-- Every index of the result array is in some point's block: row r is in block r / 2000. -/
theorem finalize_cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : (i 0).val / 2000 < cfg1.N := (by omega : (i 0).val / 2000 < 25).trans_eq N_1.symm
  obtain ⟨-, -, -, -, -, -, e30, e31⟩ := finalize_index ⟨(i 0).val / 2000, hN⟩
  have e30' : win1_3.index ⟨(i 0).val / 2000, hN⟩ (0 : Fin 2) = (i 0).val / 2000 := e30
  refine ⟨⟨(i 0).val / 2000, hN⟩, flush1_3 _, ?_⟩
  rw [finalize_mem_blk]
  intro a
  match a with
  | ⟨0, _⟩ =>
    show win1_3.index ⟨(i 0).val / 2000, hN⟩ (0 : Fin 2) * 2000 ≤ (i 0).val
      ∧ (i 0).val < win1_3.index ⟨(i 0).val / 2000, hN⟩ (0 : Fin 2) * 2000 + 2000
    omega
  | ⟨1, _⟩ =>
    show win1_3.index ⟨(i 0).val / 2000, hN⟩ (1 : Fin 2) * 64 ≤ (i 1).val
      ∧ (i 1).val < win1_3.index ⟨(i 0).val / 2000, hN⟩ (1 : Fin 2) * 64 + 64
    omega

/-- The result array after the region: the scaled logistic of the arrays the region was entered with. -/
theorem finalize_array (c : Dev nD) :
    (dat1 V c).arrAt 3 cfg1.N = scaledLogistic (V c main_v24 : FVec Ideal S50000x64 .f32)
      (V c main_v25 : FVec Ideal S50000x1 .f32) (V c main_v26 : FVec Ideal S1x64 .f32) :=
  (dat1 V c).arrAt_eq_of_cover 3 _ (fun t _ => finalize_flushed V c t) finalize_cover

end Cert.KernelIdeal.Arrays

end
-- ==== Proof.HostStretches.lean ====
/-
  The array operations around the two kernels, read as functions of what they are entered with.

  Two chains of operations are named and never opened:
  * `degreeNorm idx`: count, for each of the 50000 nodes, how often it occurs in the 800000-entry index list (a
    scatter-add of ones into zeros), clamp the count below by 1 and take the reciprocal square root;
  * `aggregate h src dst`: for each of the 800000 edges take row src(e) of the 50000 x 64 matrix h (a negative index
    wrapped by adding 50000) and add it into row dst(e) of a zero matrix.
  The first stretch (before the product kernel) leaves the out-degree normalisation as a 50000 x 1 column and the
  in-degree normalisation as a vector, and writes none of the five arguments. The second stretch (between the kernels)
  aggregates the product kernel's result along the edges and reshapes the in-degree normalisation to a column and the
  bias to a 1 x 64 row.
-/
import proofs.«159103_j78245714198553_1_alg».proof.Proof.Gen.KernelIdeal.Launch
import Idealize.ShloMosaic.Lib.StableHlo.Run
import Idealize.ShloMosaic.PureOps.Ideal

set_option maxRecDepth 16384

noncomputable section

namespace Cert.KernelIdeal.HostPart

open Idealize.ShloMosaic Idealize.ShloMosaic.TcCoe Idealize.SL.Sem Idealize.ShloMosaic.StableHlo
open Cert.KernelIdeal Cert.KernelIdeal.Gen

/-- The reciprocal square root of each node's number of occurrences in `idx`, the count clamped below by 1. -/
def degreeNorm (idx : Vec Ideal S800000 .i32) : FVec Ideal S50000 .f32 :=
  Host.rsqrt (F := Ideal)
    (maximumf
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 idx)
        (broadcastInDim S800000 ![] bcast_S_S800000 (constant (F := Ideal) S_ .f32 0x3F800000#32)))
      (broadcastInDim S50000 ![] bcast_S_S50000 (constant (F := Ideal) S_ .f32 0x3F800000#32)))

/-- Row src(e) of `h` added into row dst(e) of a zero matrix, over all edges e. -/
def aggregate (h : FVec Ideal S50000x64 .f32) (src dst : Vec Ideal S800000 .i32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select
          (cmpi CmpIPredicate.slt src (broadcastInDim S800000 ![] bcast_S_S800000 (constantI S_ 32 0#32)))
          (addi src (broadcastInDim S800000 ![] bcast_S_S800000 (constantI S_ 32 50000#32)))
          src)))

variable (Wv : Valuation τ sig (Elt Ideal))

/-! ## The stretch before the product kernel -/

theorem before_column : StableHlo.after (hostOps0 (F := Ideal)) Wv (Proc.devRef .tc main_v13)
    = shapeCast S50000x1 (degreeNorm (Wv (Proc.devRef .tc main_arg1))) shapeCasts_S50000_S50000x1 := by
  after_results_simp; rfl

theorem before_inNorm : StableHlo.after (hostOps0 (F := Ideal)) Wv (Proc.devRef .tc main_v12)
    = degreeNorm (Wv (Proc.devRef .tc main_arg2)) := by
  after_results_simp; rfl

theorem before_arg0 : StableHlo.after (hostOps0 (F := Ideal)) Wv (Proc.devRef .tc main_arg0) = Wv (Proc.devRef .tc main_arg0) := by
  after_results_simp
theorem before_arg1 : StableHlo.after (hostOps0 (F := Ideal)) Wv (Proc.devRef .tc main_arg1) = Wv (Proc.devRef .tc main_arg1) := by
  after_results_simp
theorem before_arg2 : StableHlo.after (hostOps0 (F := Ideal)) Wv (Proc.devRef .tc main_arg2) = Wv (Proc.devRef .tc main_arg2) := by
  after_results_simp
theorem before_arg3 : StableHlo.after (hostOps0 (F := Ideal)) Wv (Proc.devRef .tc main_arg3) = Wv (Proc.devRef .tc main_arg3) := by
  after_results_simp
theorem before_arg4 : StableHlo.after (hostOps0 (F := Ideal)) Wv (Proc.devRef .tc main_arg4) = Wv (Proc.devRef .tc main_arg4) := by
  after_results_simp

/-! ## The stretch between the kernels -/

theorem between_messages : StableHlo.after (hostOps1 (F := Ideal)) Wv (Proc.devRef .tc main_v24)
    = aggregate (Wv (Proc.devRef .tc main_v14)) (Wv (Proc.devRef .tc main_arg1)) (Wv (Proc.devRef .tc main_arg2)) := by
  after_results_simp; rfl

theorem between_column : StableHlo.after (hostOps1 (F := Ideal)) Wv (Proc.devRef .tc main_v25)
    = shapeCast S50000x1 (Wv (Proc.devRef .tc main_v12)) shapeCasts_S50000_S50000x1 := by
  after_results_simp; rfl

theorem between_biasRow : StableHlo.after (hostOps1 (F := Ideal)) Wv (Proc.devRef .tc main_v26)
    = shapeCast S1x64 (Wv (Proc.devRef .tc main_arg4)) shapeCasts_S64_S1x64 := by
  after_results_simp; rfl

end Cert.KernelIdeal.HostPart

end
-- ==== Proof.KernelValue.lean ====
/-
  What the program leaves in its result buffer, as ONE function of the five arrays it was launched on.

  `layer feat src dst W b` is the graph-convolution layer: scale row p of the features by the out-degree normalisation
  of node p and multiply by the weights; add, for every edge, row src(e) of that product into row dst(e); scale row p of
  the sum by the in-degree normalisation of node p, add the bias along every row and apply the logistic function.

  The fold of the program's four segments over the launch memory is read back to front: the finalize kernel's
  result is the scaled logistic of what the second stretch of array operations left; that stretch aggregates the
  product kernel's result, which is the scaled product of what the first stretch left; and the first stretch writes
  none of the arguments.
-/
import proofs.«159103_j78245714198553_1_alg».proof.Proof.KernelRun
import proofs.«159103_j78245714198553_1_alg».proof.Proof.ProductArray
import proofs.«159103_j78245714198553_1_alg».proof.Proof.FinalizeArray
import proofs.«159103_j78245714198553_1_alg».proof.Proof.HostStretches

set_option maxRecDepth 16384

noncomputable section

namespace Cert.KernelIdeal.Result

open Idealize.ShloMosaic Idealize.ShloMosaic.TcCoe Idealize.SL.Sem
open Cert.KernelIdeal Cert.KernelIdeal.Gen Cert.KernelIdeal.Arrays Cert.KernelIdeal.HostPart Cert.LayerSpec

/-- The layer as one function of the features, the two index lists, the weights and the bias. -/
def layer (feat : FVec Ideal S50000x256 .f32) (src dst : Vec Ideal S800000 .i32) (W : FVec Ideal S256x64 .f32)
    (b : FVec Ideal S64 .f32) : FVec Ideal S50000x64 .f32 :=
  scaledLogistic
    (aggregate (scaledProduct feat (shapeCast S50000x1 (degreeNorm src) shapeCasts_S50000_S50000x1) W) src dst)
    (shapeCast S50000x1 (degreeNorm dst) shapeCasts_S50000_S50000x1)
    (shapeCast S1x64 b shapeCasts_S64_S1x64)

variable (m : (ℓ : Loc nD τ sig) → Buf (Elt Ideal) ℓ) (ρ : Dev nD → PrngReg)

/-- The fold of the four segments, at the result buffer, is the layer of the launch contents of the arguments. -/
theorem result_value (c : Dev nD) :
    W4 m ρ c (Proc.devRef .tc main_v27)
      = layer (m ((c : Thread nD τ).loc main_arg0)) (m ((c : Thread nD τ).loc main_arg1))
          (m ((c : Thread nD τ).loc main_arg2)) (m ((c : Thread nD τ).loc main_arg3)) (m ((c : Thread nD τ).loc main_arg4)) := by
  -- what the product kernel is entered with
  have a0 : (V1 m ρ c main_arg0 : FVec Ideal S50000x256 .f32) = m ((c : Thread nD τ).loc main_arg0) :=
    before_arg0 (W0 m ρ c)
  have a3 : (V1 m ρ c main_arg3 : FVec Ideal S256x64 .f32) = m ((c : Thread nD τ).loc main_arg3) :=
    before_arg3 (W0 m ρ c)
  have a13 : (V1 m ρ c main_v13 : FVec Ideal S50000x1 .f32)
      = shapeCast S50000x1 (degreeNorm (m ((c : Thread nD τ).loc main_arg1))) shapeCasts_S50000_S50000x1 :=
    before_column (W0 m ρ c)
  -- what it leaves, and what the other buffers hold when it is done
  have h14 : (W2 m ρ c (Proc.devRef .tc main_v14) : FVec Ideal S50000x64 .f32)
      = scaledProduct (m ((c : Thread nD τ).loc main_arg0))
          (shapeCast S50000x1 (degreeNorm (m ((c : Thread nD τ).loc main_arg1))) shapeCasts_S50000_S50000x1)
          (m ((c : Thread nD τ).loc main_arg3)) :=
    (W2_arr m ρ c 3).trans ((product_array (V1 m ρ) c).trans (by rw [a0, a13, a3]))
  have w1 : W2 m ρ c (Proc.devRef .tc main_arg1) = m ((c : Thread nD τ).loc main_arg1) :=
    (W2_of_ne m ρ c main_arg1 (by decide)).trans (before_arg1 (W0 m ρ c))
  have w2 : W2 m ρ c (Proc.devRef .tc main_arg2) = m ((c : Thread nD τ).loc main_arg2) :=
    (W2_of_ne m ρ c main_arg2 (by decide)).trans (before_arg2 (W0 m ρ c))
  have w4 : W2 m ρ c (Proc.devRef .tc main_arg4) = m ((c : Thread nD τ).loc main_arg4) :=
    (W2_of_ne m ρ c main_arg4 (by decide)).trans (before_arg4 (W0 m ρ c))
  have w12 : (W2 m ρ c (Proc.devRef .tc main_v12) : FVec Ideal S50000 .f32)
      = degreeNorm (m ((c : Thread nD τ).loc main_arg2)) :=
    (W2_of_ne m ρ c main_v12 (by decide)).trans (before_inNorm (W0 m ρ c))
  -- what the finalize kernel is entered with
  have v24 : (V3 m ρ c main_v24 : FVec Ideal S50000x64 .f32)
      = aggregate (scaledProduct (m ((c : Thread nD τ).loc main_arg0))
          (shapeCast S50000x1 (degreeNorm (m ((c : Thread nD τ).loc main_arg1))) shapeCasts_S50000_S50000x1)
          (m ((c : Thread nD τ).loc main_arg3))) (m ((c : Thread nD τ).loc main_arg1)) (m ((c : Thread nD τ).loc main_arg2)) :=
    (between_messages (W2 m ρ c)).trans (by rw [h14, w1, w2])
  have v25 : (V3 m ρ c main_v25 : FVec Ideal S50000x1 .f32)
      = shapeCast S50000x1 (degreeNorm (m ((c : Thread nD τ).loc main_arg2))) shapeCasts_S50000_S50000x1 :=
    (between_column (W2 m ρ c)).trans (by rw [w12])
  have v26 : (V3 m ρ c main_v26 : FVec Ideal S1x64 .f32)
      = shapeCast S1x64 (m ((c : Thread nD τ).loc main_arg4)) shapeCasts_S64_S1x64 :=
    (between_biasRow (W2 m ρ c)).trans (by rw [w4])
  exact (W4_arr m ρ c 3).trans ((finalize_array (V3 m ρ) c).trans (by rw [v24, v25, v26]; rfl))

/-- Every weakly fair execution terminates without a fault, with the result buffer at the layer of the launch contents
    of the arguments and the arguments as launched. -/
theorem run : θ_run defs (onTc (τ := τ) (main (F := Ideal))) ⟨m, fun _ => 0, ρ⟩ (fun r => ∀ c : Dev nD,
      r.2.mem ((c.tc : Thread nD τ).loc main_v27)
        = layer (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_value m ρ c), (h c).2⟩)
    (Cert.KernelIdeal.RunValue.run_result (F := Ideal) m ρ)

end Cert.KernelIdeal.Result

end
-- ==== Proof.LibColRow.lean ====
/-
  A vector laid out as a column or as a row, in the forms array programs write it.

  A vector of M entries becomes an M x 1 column either by a cast (the row-major order is unchanged) or by a broadcast
  along a new unit axis; both are the function (p, 0) -> s(p) (`colOf`). Broadcasting that column across n columns
  gives, at (p, q), the entry s(p) (`colBroadcast_apply`). Likewise a vector of N entries becomes a 1 x N row by a
  cast; that row is the function (0, q) -> b(q) (`rowOf`).
-/
import Idealize.ShloMosaic.Lib.Pipeline.Value
import Idealize.ShloMosaic.Lib.ValueIdx
import Idealize.ShloMosaic.Lib.ValueLayout
import proofs.«159103_j78245714198553_1_alg».proof.Proof.LibKeepdims

namespace Cert.ColRow

open Idealize.ShloMosaic Idealize.ShloMosaic.ValueIdx

variable {α : Type}

/-- A vector of M entries as an M x 1 column: entry (p, u) is the vector's entry p. -/
def colOf {M : ℕ} (s : (⟨1, ![M]⟩ : Shape).Idx → α) : (⟨2, ![M, 1]⟩ : Shape).Idx → α := fun i => s (ix1 (i 0))

theorem colOf_apply {M : ℕ} (s : (⟨1, ![M]⟩ : Shape).Idx → α) (p : Fin M) (u : Fin 1) : colOf s (ix2 p u) = s (ix1 p) := rfl

/-- A vector of N entries as a 1 x N row: entry (u, q) is the vector's entry q. -/
def rowOf {N : ℕ} (b : (⟨1, ![N]⟩ : Shape).Idx → α) : (⟨2, ![1, N]⟩ : Shape).Idx → α := fun i => b (ix1 (i 1))

theorem rowOf_apply {N : ℕ} (b : (⟨1, ![N]⟩ : Shape).Idx → α) (u : Fin 1) (q : Fin N) : rowOf b (ix2 u q) = b (ix1 q) := rfl

/-- The cast of a vector to a column is that column. -/
theorem shapeCast_col {M : ℕ} (s : (⟨1, ![M]⟩ : Shape).Idx → α) (h : (⟨1, ![M]⟩ : Shape).ShapeCasts ⟨2, ![M, 1]⟩) :
    shapeCast ⟨2, ![M, 1]⟩ s h = colOf s := by
  funext i
  obtain ⟨p, u, rfl⟩ : ∃ (p : Fin M) (u : Fin 1), i = ix2 p u := ⟨i 0, i 1, eq_ix2 i⟩
  exact Cert.Keepdims.shapeCast_a_a1_apply s h p u

/-- The cast of a vector to a row is that row. -/
theorem shapeCast_row {N : ℕ} (b : (⟨1, ![N]⟩ : Shape).Idx → α) (h : (⟨1, ![N]⟩ : Shape).ShapeCasts ⟨2, ![1, N]⟩) :
    shapeCast ⟨2, ![1, N]⟩ b h = rowOf b := by
  funext i
  obtain ⟨u, q, rfl⟩ : ∃ (u : Fin 1) (q : Fin N), i = ix2 u q := ⟨i 0, i 1, eq_ix2 i⟩
  exact shapeCast_a_1a_apply b h u q

/-- A vector made a column by a broadcast along a new unit axis, then repeated across n columns: entry (p, q) is the
    vector's entry p. -/
theorem colBroadcast_apply {M n : ℕ} (s : (⟨1, ![M]⟩ : Shape).Idx → α)
    (h₁ : (⟨1, ![M]⟩ : Shape).BroadcastsInDim ⟨2, ![M, 1]⟩ (![0] : Fin 1 → Fin 2))
    (h₂ : (⟨2, ![M, 1]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![M, 1]⟩ ![0] h₁ s) (ix2 p q) = s (ix1 p) := by
  refine (broadcastInDim_apply ![0, 1] h₂ _ (ix2 p q) (ix2 p (0 : Fin 1)) fun a => ?_).trans
    (broadcastInDim_apply ![0] h₁ s (ix2 p (0 : Fin 1)) (ix1 p) fun a => ?_)
  · match a with
    | ⟨0, _⟩ =>
      show p.val = if M = 1 then 0 else p.val
      split
      · have := p.isLt; omega
      · rfl
    | ⟨1, _⟩ => show (0 : ℕ) = if (1 : ℕ) = 1 then 0 else _; rw [if_pos rfl]
  · match a with
    | ⟨0, _⟩ =>
      show p.val = if M = 1 then 0 else p.val
      split
      · have := p.isLt; omega
      · rfl

end Cert.ColRow
-- ==== Proof.ReferenceValue.lean ====
/-
  The reference's result is the same layer.

  The reference computes, in array operations only: the two degree normalisations; the features with row p scaled by
  the out-degree normalisation of node p (the vector broadcast to a column and then across the 256 columns), times the
  weights (one matrix product); the aggregation along the edges; then 1 / (1 + exp(-(agg * norm_in + bias))) with the
  in-degree normalisation broadcast across the 64 columns and the bias down the 50000 rows.

  * Its degree normalisations and its aggregation are the kernel program's, operation for operation (the dimension
    records are the same data): `degreeNorm_eq`, `aggregate_eq`.
  * Its matrix product of the scaled features is the scaled product of the features and the normalisation column, entry
    by entry the same sum over k of (x(p, k) * s(p)) * w(k, q): `product_eq`.
  * 1 / (1 + exp(-y)) with the literal 1.0 IS the logistic function on the extended reals, and the two broadcasts read
    s(p) and b(q) at (p, q): `logistic_eq`.
  No law beyond these is used; in particular nothing is distributed or cancelled, so no entry needs to be finite.
-/
import proofs.«159103_j78245714198553_1_alg».proof.Proof.Gen.ReferenceIdeal
import proofs.«159103_j78245714198553_1_alg».proof.Proof.KernelValue
import proofs.«159103_j78245714198553_1_alg».proof.Proof.LibRank2
import proofs.«159103_j78245714198553_1_alg».proof.Proof.LibColRow
import Idealize.ShloMosaic.Lib.ValueLayout

set_option maxRecDepth 16384

noncomputable section

open scoped BigOperators

namespace Cert.ReferenceIdeal.RefValue

open Idealize.ShloMosaic Idealize.ShloMosaic.ValueIdx Cert.ReferenceIdeal Cert.ReferenceIdeal.Gen Cert.LayerSpec

/-- The literal 1.0. -/
theorem ofBits_one : Ideal.ofBits .f32 0x3F800000#32 = 1 := by
  simp [Ideal.ofBits, Ideal.ieee, -EReal.coe_mul]; norm_num

/-- The reference's degree normalisation of an index list. -/
def degreeNorm (idx : Vec Ideal S800000 .i32) : FVec Ideal S50000 .f32 :=
  Host.rsqrt (F := Ideal)
    (maximumf
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 idx)
        (broadcastInDim S800000 ![] bcast_S_S800000 (constant (F := Ideal) S_ .f32 0x3F800000#32)))
      (broadcastInDim S50000 ![] bcast_S_S50000 (constant (F := Ideal) S_ .f32 0x3F800000#32)))

/-- The reference's aggregation of a matrix of rows along the edges. -/
def aggregate (h : FVec Ideal S50000x64 .f32) (src dst : Vec Ideal S800000 .i32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select
          (cmpi CmpIPredicate.slt src (broadcastInDim S800000 ![] bcast_S_S800000 (constantI S_ 32 0#32)))
          (addi src (broadcastInDim S800000 ![] bcast_S_S800000 (constantI S_ 32 50000#32)))
          src)))

/-- The reference's whole result as a function of its five arguments (its operations in order). -/
def result (feat : FVec Ideal S50000x256 .f32) (src dst : Vec Ideal S800000 .i32) (W : FVec Ideal S256x64 .f32)
    (b : FVec Ideal S64 .f32) : FVec Ideal S50000x64 .f32 :=
  Host.divf (F := Ideal) (broadcastInDim S50000x64 ![] bcast_S_S50000x64 (constant (F := Ideal) S_ .f32 0x3F800000#32))
    (addf (broadcastInDim S50000x64 ![] bcast_S_S50000x64 (constant (F := Ideal) S_ .f32 0x3F800000#32))
      (Host.exp (F := Ideal) (Host.negf (F := Ideal)
        (addf
          (mulf
            (aggregate
              (Host.dotGeneral (F := Ideal) dot_S50000x256_S256x64_S50000x64_1_0_0_1_n_n none
                (mulf feat (broadcastInDim S50000x256 ![0, 1] bcast_S50000x1_S50000x256_0_1
                  (broadcastInDim S50000x1 ![0] bcast_S50000_S50000x1_0 (degreeNorm src))))
                W)
              src dst)
            (broadcastInDim S50000x64 ![0, 1] bcast_S50000x1_S50000x64_0_1
              (broadcastInDim S50000x1 ![0] bcast_S50000_S50000x1_0 (degreeNorm dst))))
          (broadcastInDim S50000x64 ![0, 1] bcast_S1x64_S50000x64_0_1 (broadcastInDim S1x64 ![1] bcast_S64_S1x64_1 b))))))

theorem degreeNorm_eq (idx : Vec Ideal S800000 .i32) : degreeNorm idx = Cert.KernelIdeal.HostPart.degreeNorm idx := rfl

theorem aggregate_eq (h : FVec Ideal S50000x64 .f32) (src dst : Vec Ideal S800000 .i32) :
    aggregate h src dst = Cert.KernelIdeal.HostPart.aggregate h src dst := rfl

/-- The product of the row-scaled features with the weights is the scaled product. -/
theorem product_eq (feat : FVec Ideal S50000x256 .f32) (s : FVec Ideal S50000 .f32) (W : FVec Ideal S256x64 .f32) :
    Host.dotGeneral (F := Ideal) dot_S50000x256_S256x64_S50000x64_1_0_0_1_n_n none
        (mulf feat (broadcastInDim S50000x256 ![0, 1] bcast_S50000x1_S50000x256_0_1
          (broadcastInDim S50000x1 ![0] bcast_S50000_S50000x1_0 s))) W
      = scaledProduct feat (shapeCast S50000x1 s Cert.KernelIdeal.Gen.shapeCasts_S50000_S50000x1) W := by
  funext i
  obtain ⟨p, q, rfl⟩ : ∃ (p : Fin 50000) (q : Fin 64), i = ix2 p q := ⟨i 0, i 1, eq_ix2 i⟩
  refine (Cert.Rank2.dotGeneral_plain_apply dot_S50000x256_S256x64_S50000x64_1_0_0_1_n_n_wf none _ _ p q).trans ?_
  rw [scaledProduct_apply, Cert.Keepdims.shapeCast_a_a1_apply]
  refine Finset.sum_congr rfl fun k _ => ?_
  rw [mulf_apply, Cert.ColRow.colBroadcast_apply]

/-- 1 / (1 + exp(-(a * s + b))) with the column and row broadcast in two steps is the scaled logistic. -/
theorem logistic_eq (a : FVec Ideal S50000x64 .f32) (s : FVec Ideal S50000 .f32) (b : FVec Ideal S64 .f32) :
    Host.divf (F := Ideal) (broadcastInDim S50000x64 ![] bcast_S_S50000x64 (constant (F := Ideal) S_ .f32 0x3F800000#32))
        (addf (broadcastInDim S50000x64 ![] bcast_S_S50000x64 (constant (F := Ideal) S_ .f32 0x3F800000#32))
          (Host.exp (F := Ideal) (Host.negf (F := Ideal)
            (addf
              (mulf a (broadcastInDim S50000x64 ![0, 1] bcast_S50000x1_S50000x64_0_1
                (broadcastInDim S50000x1 ![0] bcast_S50000_S50000x1_0 s)))
              (broadcastInDim S50000x64 ![0, 1] bcast_S1x64_S50000x64_0_1 (broadcastInDim S1x64 ![1] bcast_S64_S1x64_1 b))))))
      = scaledLogistic a (shapeCast S50000x1 s Cert.KernelIdeal.Gen.shapeCasts_S50000_S50000x1)
          (shapeCast S1x64 b Cert.KernelIdeal.Gen.shapeCasts_S64_S1x64) := by
  funext i
  obtain ⟨p, q, rfl⟩ : ∃ (p : Fin 50000) (q : Fin 64), i = ix2 p q := ⟨i 0, i 1, eq_ix2 i⟩
  rw [scaledLogistic_apply, Cert.Keepdims.shapeCast_a_a1_apply, shapeCast_a_1a_apply]
  show Ideal.div (Ideal.ofBits .f32 0x3F800000#32) (Ideal.ofBits .f32 0x3F800000#32 + Ideal.exp (-(a (ix2 p q)
      * broadcastInDim S50000x64 ![0, 1] bcast_S50000x1_S50000x64_0_1 (broadcastInDim S50000x1 ![0] bcast_S50000_S50000x1_0 s) (ix2 p q)
      + broadcastInDim S50000x64 ![0, 1] bcast_S1x64_S50000x64_0_1 (broadcastInDim S1x64 ![1] bcast_S64_S1x64_1 b) (ix2 p q)))) = _
  rw [Cert.ColRow.colBroadcast_apply, Cert.Rank2.rowBias_apply, ofBits_one]
  rfl

/-- The reference's result is the kernel program's layer. -/
theorem result_eq (feat : FVec Ideal S50000x256 .f32) (src dst : Vec Ideal S800000 .i32) (W : FVec Ideal S256x64 .f32)
    (b : FVec Ideal S64 .f32) : result feat src dst W b = Cert.KernelIdeal.Result.layer feat src dst W b := by
  unfold result Cert.KernelIdeal.Result.layer
  rw [logistic_eq, product_eq, aggregate_eq, degreeNorm_eq, degreeNorm_eq]

end Cert.ReferenceIdeal.RefValue

end
-- ==== Proof.lean ====
/-
  A graph-convolution layer computed with two row-tiled kernels against the same layer written with array operations.

  Both programs compute, from node features X (50000 x 256), an edge list (src, dst) of 800000 edges, weights W
  (256 x 64) and a bias b (64):
      n_out(p) = max(#{e : src(e) = p}, 1)^(-1/2),   n_in(p) = max(#{e : dst(e) = p}, 1)^(-1/2),
      H(p, q)  = sum over k of (X(p, k) * n_out(p)) * W(k, q),
      A(p, q)  = sum over the edges e with dst(e) = p of H(src(e), q),
      out(p, q) = logistic(A(p, q) * n_in(p) + b(q)).
  The kernel program computes H in a kernel over 25 blocks of 2000 rows (the factors narrowed to bf16 before the
  contraction, which changes nothing on the extended reals) and out in a second such kernel; the degree counts, the
  gather of rows by src and the scatter-add by dst are array operations, the same in both programs. The reference
  computes H with one matrix product and the logistic function as 1 / (1 + exp(-y)).

  The two results are equal because the two programs apply the same operations in the same order: a block of rows of H
  (of out) is the same function of the matching blocks of its operands, the 25 blocks tile the rows, the matrix unit's
  contraction into a zero accumulator and the host's matrix product are the same sum over k, and 1 / (1 + exp(-y)) with
  the literal 1.0 is the logistic function on every extended real. Nothing is distributed, cancelled or reordered,
  so the precondition that the inputs are finite is not used for the values. The kernel program's idealization rewrote
  no operation, so that conjunct is trivial; the three programs' frames are the generated ones.
-/
import proofs.«159103_j78245714198553_1_alg».proof.Defs
import proofs.«159103_j78245714198553_1_alg».proof.Proof.Gen.Kernel
import proofs.«159103_j78245714198553_1_alg».proof.Proof.Gen.Kernel.Frame
import proofs.«159103_j78245714198553_1_alg».proof.Proof.Gen.KernelIdeal
import proofs.«159103_j78245714198553_1_alg».proof.Proof.Gen.KernelIdeal.Frame
import proofs.«159103_j78245714198553_1_alg».proof.Proof.Gen.ReferenceIdeal
import proofs.«159103_j78245714198553_1_alg».proof.Proof.Gen.ReferenceIdeal.Run
import proofs.«159103_j78245714198553_1_alg».proof.Proof.Gen.Pre_finite_inputs
import proofs.«159103_j78245714198553_1_alg».proof.Proof.KernelValue
import proofs.«159103_j78245714198553_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the layer of those arguments in their
    result buffer: the kernel program by reading its four segments back to front, the reference because its
    operations compose to the same function. -/
theorem algebraic : Cert.algebraic_KernelIdeal_ReferenceIdeal := by
  intro m ρ m' ρ' _ hagree
  refine ⟨fun c => Cert.KernelIdeal.Result.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [h0, h1, h2, h3, h4]
  exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
